-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .bf16⟩
  | .hbm, ⟨6, _⟩ => ⟨S4096x4096, .bf16⟩
  | .hbm, ⟨7, _⟩ => ⟨S8192x4096, .f32⟩
  | .hbm, ⟨8, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibBlockSum.lean ====
/-
  A sum over consecutive blocks is the sum over all the terms.

  A contraction of length B * n computed B terms at a time — block i contributes the terms B * i, ..., B * i + B - 1,
  and the n partial sums are added — is the whole contraction: on an additive commutative monoid the order and the
  grouping of the terms do not matter. Stated for a sequence f : ℕ → M, with the blocks enumerated by Finset.range n
  and the terms inside a block by Fin B, and once more with the inner term given as a function of (block, position).
-/
import Mathlib.Algebra.BigOperators.Fin
import Mathlib.Data.Fintype.BigOperators
import Idealize.ShloMosaic.Lib.ValueIdx

namespace Cert.BlockSum

open scoped BigOperators

/-- The sum over n consecutive blocks of B terms each, block i being the terms at B * i + j for j below B, is the sum
    over all B * n terms. -/
theorem sum_blocks {M : Type*} [AddCommMonoid M] (f : ℕ → M) (B n : ℕ) :
    ∑ i ∈ Finset.range n, ∑ j : Fin B, f (B * i + j.val) = ∑ J : Fin (B * n), f J.val := by
  induction n with
  | zero => simp
  | succ n ih =>
    rw [Finset.sum_range_succ, ih, Fin.sum_univ_eq_sum_range (fun k => f k) (B * n),
      Fin.sum_univ_eq_sum_range (fun k => f (B * n + k)) B, Fin.sum_univ_eq_sum_range (fun k => f k) (B * (n + 1)),
      Nat.mul_succ, Finset.sum_range_add]

/-- The same with the term of block i at position j given as g i j, equal to the term of f at B * i + j. -/
theorem sum_blocks_of_eq {M : Type*} [AddCommMonoid M] (f : ℕ → M) (B n : ℕ) (g : ℕ → Fin B → M)
    (h : ∀ i j, g i j = f (B * i + j.val)) :
    ∑ i ∈ Finset.range n, ∑ j : Fin B, g i j = ∑ J : Fin (B * n), f J.val := by
  rw [← sum_blocks f B n]
  exact Finset.sum_congr rfl fun i _ => Finset.sum_congr rfl fun j _ => h i j

end Cert.BlockSum
-- ==== Proof.Spec.lean ====
/-
  The dense layer both programs compute, as one function of the arrays: with x an [8192, 4096] matrix of extended
  reals, w a [4096, 4096] matrix and b a vector of 4096 entries,

      dense x w b (R, Q) = (Σ_d x(R, d) · w(Q, d)) + b(Q).

  The kernel forms the contraction over d in 8 consecutive blocks of 512 terms and adds the block sums one after
  the other to a zero start; on the extended reals addition is associative and commutative (and 0 is neutral), so
  the blocked sum is the whole sum, whatever the entries are — no finiteness is used.
-/
import Mathlib.Algebra.BigOperators.Fin
import Idealize.ShloMosaic.Lib.ValueIdx
import proofs.«114481_j33483565039897_2_alg».proof.Proof.LibBlockSum

noncomputable section

open scoped BigOperators

namespace Cert.Dense

open Idealize.ShloMosaic Idealize.ShloMosaic.ValueIdx

/-- Term d of the contraction of row R of x with row Q of w, as a sequence on the naturals: zero past the
    contracted extent 4096 (those terms are never summed). -/
def term (x : (⟨2, ![8192, 4096]⟩ : Shape).Idx → EReal) (w : (⟨2, ![4096, 4096]⟩ : Shape).Idx → EReal)
    (R : Fin 8192) (Q : Fin 4096) (d : ℕ) : EReal :=
  if h : d < 4096 then x (ix2 R ⟨d, h⟩) * w (ix2 Q ⟨d, h⟩) else 0

/-- Below the extent the sequence is the product of the two entries. -/
theorem term_of_lt (x : (⟨2, ![8192, 4096]⟩ : Shape).Idx → EReal) (w : (⟨2, ![4096, 4096]⟩ : Shape).Idx → EReal)
    (R : Fin 8192) (Q : Fin 4096) (d : Fin 4096) : term x w R Q d.val = x (ix2 R d) * w (ix2 Q d) := by
  unfold term
  rw [dif_pos d.isLt]

/-- The dense layer: entry (R, Q) is the contraction of row R of x with row Q of w, plus b(Q). -/
def dense (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ d : Fin 4096, x (ix2 (i 0) d) * w (ix2 (i 1) d)) + b (ix1 (i 1))

/-- The eight block sums of 512 terms add up to the whole contraction. -/
theorem blocks_total (x : (⟨2, ![8192, 4096]⟩ : Shape).Idx → EReal) (w : (⟨2, ![4096, 4096]⟩ : Shape).Idx → EReal)
    (R : Fin 8192) (Q : Fin 4096) :
    ∑ i ∈ Finset.range 8, ∑ j : Fin 512, term x w R Q (512 * i + j.val) = ∑ d : Fin 4096, x (ix2 R d) * w (ix2 Q d) := by
  rw [Cert.BlockSum.sum_blocks (term x w R Q) 512 8]
  show ∑ J : Fin 4096, term x w R Q J.val = _
  exact Finset.sum_congr rfl fun d _ => term_of_lt x w R Q d

end Cert.Dense

end
-- ==== Proof.Payload.lean ====
/-
  The three values the kernel body stores, read entry by entry on the extended reals.

  The reset value of the accumulator is the zero block. One accumulation step adds to the entry (r, q) of the
  accumulator the dot product, over the 512 lanes of the current blocks, of row r of the x block with row q of the
  w block (the matrix product contracts the lane axis of both operands and starts from a zero accumulator, so it is
  just that sum). The epilogue adds to the entry (r, q) the entry q of the single bias row, which is broadcast over
  the 1024 rows. Shape casts between equal shapes are the identity.
-/
import proofs.«114481_j33483565039897_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The accumulator's reset value is zero everywhere. -/
theorem pay1_apply (i : S1024x2048.Idx) : k0_pay1 (F := Ideal) i = (0 : EReal) := by
  unfold k0_pay1
  simp only [shapeCast_self]
  exact Ideal.ofBits_zero_f32

/-- The kept (row) axis of the left operand's index is the output's row. -/
private theorem lhs_0 (j : S1024x2048.Idx) (k : dot_S1024x512_S2048x512_S1024x2048_1_1_0_0_n_n.contr.Idx) :
    (dot_S1024x512_S2048x512_S1024x2048_1_1_0_0_n_n.lhsIdx j k 0).val = (j 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl

/-- The contracted axis of the left operand's index is the contraction coordinate. -/
private theorem lhs_1 (j : S1024x2048.Idx) (k : dot_S1024x512_S2048x512_S1024x2048_1_1_0_0_n_n.contr.Idx) :
    (dot_S1024x512_S2048x512_S1024x2048_1_1_0_0_n_n.lhsIdx j k 1).val = (k ⟨0, by decide⟩).val :=
  dot_S1024x512_S2048x512_S1024x2048_1_1_0_0_n_n.lhsIdx_val_of_single rfl j k

/-- The kept (row) axis of the right operand's index is the output's column. -/
private theorem rhs_0 (j : S1024x2048.Idx) (k : dot_S1024x512_S2048x512_S1024x2048_1_1_0_0_n_n.contr.Idx) :
    (dot_S1024x512_S2048x512_S1024x2048_1_1_0_0_n_n.rhsIdx j k 0).val = (j 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl

/-- The contracted axis of the right operand's index is the contraction coordinate. -/
private theorem rhs_1 (j : S1024x2048.Idx) (k : dot_S1024x512_S2048x512_S1024x2048_1_1_0_0_n_n.contr.Idx) :
    (dot_S1024x512_S2048x512_S1024x2048_1_1_0_0_n_n.rhsIdx j k 1).val = (k ⟨0, by decide⟩).val :=
  dot_S1024x512_S2048x512_S1024x2048_1_1_0_0_n_n.rhsIdx_val_of_single rfl j k

/-- The product into a zero accumulator, at entry (r, q): the 512-term dot product of row r of the left operand with
    row q of the right one. -/
private theorem matmul_zero_apply (a : FVec Ideal S1024x512 .bf16) (b : FVec Ideal S2048x512 .bf16) (r : Fin 1024) (q : Fin 2048) :
    FloatOps.matmul dot_S1024x512_S2048x512_S1024x2048_1_1_0_0_n_n none a b (constant (F := Ideal) S1024x2048 .f32 0x00000000#32) (ix2 r q)
      = ∑ j : Fin 512, a (ix2 r j) * b (ix2 q j) := by
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 r q) ((ValueIdx.contrEquiv1 dot_S1024x512_S2048x512_S1024x2048_1_1_0_0_n_n 512 rfl rfl).symm k) = ix2 r k := funext fun ax => Fin.ext (by
    match ax with
    | ⟨0, _⟩ => exact lhs_0 _ _
    | ⟨1, _⟩ => exact (lhs_1 _ _).trans hk)
  have er : dot_S1024x512_S2048x512_S1024x2048_1_1_0_0_n_n.rhsIdx (ix2 r q) ((ValueIdx.contrEquiv1 dot_S1024x512_S2048x512_S1024x2048_1_1_0_0_n_n 512 rfl rfl).symm k) = ix2 q k := funext fun ax => Fin.ext (by
    match ax with
    | ⟨0, _⟩ => exact rhs_0 _ _
    | ⟨1, _⟩ => exact (rhs_1 _ _).trans hk)
  rw [el, er]

/-- One accumulation step at entry (r, q): the old entry plus the 512-term dot product of row r of the x block with row q of the w block. -/
theorem pay2_apply (v3 : Vec Ideal S1024x2048 .f32) (v4 : Vec Ideal S1024x512 .bf16) (v6 : Vec Ideal S2048x512 .bf16)
    (r : Fin 1024) (q : Fin 2048) :
    k0_pay2 v3 v4 v6 (ix2 r q) = (v3 (ix2 r q) : EReal) + ∑ j : Fin 512, (v4 (ix2 r j) : EReal) * (v6 (ix2 q j) : EReal) := by
  unfold k0_pay2
  simp only [shapeCast_self, matmul]
  exact congrArg (v3 (ix2 r q) + ·) (matmul_zero_apply v4 v6 r q)

/-- The epilogue at entry (r, q): the accumulator plus the bias row's entry q. -/
theorem pay3_apply (v16 : Vec Ideal S1024x2048 .f32) (v17 : Vec Ideal S1x2048 .f32) (r : Fin 1024) (q : Fin 2048) :
    k0_pay3 v16 v17 (ix2 r q) = (v16 (ix2 r q) : EReal) + (v17 (ix2 (0 : Fin 1) q) : EReal) := by
  unfold k0_pay3
  simp only [shapeCast_self]
  exact congrArg (v16 (ix2 r q) + ·) (broadcastTo_1b_ab_apply v17 broadcasts_S1x2048_S1024x2048 r q)

end Cert.KernelIdeal.Payload

end
-- ==== Proof.Pieces.lean ====
/-
  What each control case of the kernel body leaves behind, as the body's named payloads, for any float instance.

  The body keeps a running accumulator in a scratch block carried from one grid point to the next.  At the first
  step of a reduction it resets the accumulator to zeros and then adds one product block  x · wᵀ  to it; at a
  middle step it adds one product block to what the step before left; at the last step it does the same and then
  writes accumulator + bias into the output block.  Every store and every load goes through the whole block (the
  unit rectangle at zero offsets), so a block after its covering stores reads as the payload of the last store, and
  a load of a whole block reads its contents.
-/
import proofs.«114481_j33483565039897_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- The zero offsets of a rank-2 block, as the constant-zero function. -/
private theorem hz : (![0, 0] : Fin 2 → Nat) = fun _ => 0 := funext fun a => by fin_cases a <;> rfl

/-- First step of a reduction: the scratch ends at one accumulation step over the zero reset. -/
theorem sout_A (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x512 .bf16) (x1 : Vec F S2048x512 .bf16) (x2 : Vec F S1x2048 .f32) :
    sout0_A_0 c i arg3 harg3 arg4 harg4 arg5 harg5 arg6 harg6 arg7 harg7 hc0 hc1 x0 x1 x2 = k0_pay2 (k0_pay1 (F := F)) x0 x1 := by
  unfold sout0_A_0
  -- the two stores cover the block, so reading them back is their canonical contents
  rw [View.read_writes_eq_canon _ _ _ (scover0_A_0 c i arg3 harg3 arg4 harg4 arg5 harg5 arg6 harg6 arg7 harg7 hc0 hc1 x0 x1 x2)]
  unfold kernelRun0_A
  dsimp only
  sl_unfold_words
  -- the later whole-block store wins; the accumulator it read back is what the zero reset had stored
  rw [View.canon_cons_unit_zero (S := S1024x2048) hz, View.readCov_unit_zero (S := S1024x2048) _ hz]
  -- the loads of x and w read their whole blocks
  simp only [View.readAt_eq_ld, harg3.read_unread, harg4.read_unread,
    View.ld_unit_zero (S := S1024x512) hz, View.ld_unit_zero (S := S2048x512) hz]

/-- A middle step: one accumulation step over what the point before left. -/
theorem sout_B (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x512 .bf16) (x1 : Vec F S2048x512 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  -- one whole-block store: its payload, over the whole-block loads of the accumulator, x and w
  rw [View.canon_unit_zero (S := S1024x2048) hz]
  simp only [View.readAt_eq_ld, harg7.read_unread, harg3.read_unread, harg4.read_unread,
    View.ld_unit_zero (S := S1024x2048) hz, View.ld_unit_zero (S := S1024x512) hz, View.ld_unit_zero (S := S2048x512) hz]

/-- The last step: the scratch likewise, -/
theorem sout_C (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x2048) hz]
  simp only [View.readAt_eq_ld, harg7.read_unread, harg3.read_unread, harg4.read_unread,
    View.ld_unit_zero (S := S1024x2048) hz, View.ld_unit_zero (S := S1024x512) hz, View.ld_unit_zero (S := S2048x512) hz]

/-- and the output block is the epilogue of the finished accumulator and the bias block. -/
theorem out_C (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  -- one whole-block store into the output; the accumulator it read back is what this step's store had left
  rw [View.canon_unit_zero (S := S1024x2048) hz, View.readCov_unit_zero (S := S1024x2048) _ hz]
  simp only [View.readAt_eq_ld, harg7.read_unread, harg3.read_unread, harg4.read_unread, harg5.read_unread,
    View.ld_unit_zero (S := S1024x2048) hz, View.ld_unit_zero (S := S1024x512) hz, View.ld_unit_zero (S := S2048x512) hz,
    View.ld_unit_zero (S := S1x2048) hz]

end Cert.KernelIdeal.Pieces

end
-- ==== Proof.Blocks.lean ====
/-
  The three input blocks of the blocked matrix product y = x · wᵀ + bias, read entry by entry. The grid is
  8 × 2 × 8, row-major: point t is (i, j, k) with t = (2 i + j) · 8 + k, so i = t / 16, j = t / 8 % 2, k = t % 8.
  At point t the x block is rows 1024 i … of lanes 512 k …, the w block is rows 2048 j … of lanes 512 k …, and the
  bias block is lanes 2048 j … of the single bias row: a block's coordinate in the array is (block index) · (block
  extent) + (coordinate inside the block). The second half says what the three arrays are in terms of the function's
  arguments: x is the [4, 2048, 4096] argument re-read row-major as [8192, 4096], the bias row is the [4096] argument
  re-read as [1, 4096], and the two narrowing conversions are the identity on extended reals.
-/
import proofs.«114481_j33483565039897_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

/-- Where the x window sits at point t: row block t / 16, lane block t % 8. -/
private theorem index0 : ∀ t : Fin cfg0.N, win0_0.index t 0 = t.val / 16 ∧ win0_0.index t 1 = t.val % 8 :=
  (by decide +kernel : ∀ t : Fin grid0.N, win0_0.index t 0 = t.val / 16 ∧ win0_0.index t 1 = t.val % 8)

/-- Where the w window sits at point t: row block t / 8 % 2, lane block t % 8. -/
private theorem index1 : ∀ t : Fin cfg0.N, win0_1.index t 0 = t.val / 8 % 2 ∧ win0_1.index t 1 = t.val % 8 :=
  (by decide +kernel : ∀ t : Fin grid0.N, win0_1.index t 0 = t.val / 8 % 2 ∧ win0_1.index t 1 = t.val % 8)

/-- Where the bias window sits at point t: row block 0, lane block t / 8 % 2. -/
private theorem index2 : ∀ t : Fin cfg0.N, win0_2.index t 0 = 0 ∧ win0_2.index t 1 = t.val / 8 % 2 :=
  (by decide +kernel : ∀ t : Fin grid0.N, win0_2.index t 0 = 0 ∧ win0_2.index t 1 = t.val / 8 % 2)

section AnyInstance
variable {F : FTy → Type} [FloatOps F]
variable (m : (ℓ : Loc nD τ sig) → Buf (Elt F) ℓ)

/-- Row r, lane j of the x block at point t = (i, j', k) is x[1024 i + r, 512 k + j], with i = t / 16 and k = t % 8. -/
theorem iblk0_apply (c : Dev nD) (t : Fin cfg0.N) (r : Fin 1024) (j : Fin 512) (R : Fin 8192) (D : Fin 4096)
    (hR : R.val = 1024 * (t.val / 16) + r.val) (hD : D.val = 512 * (t.val % 8) + j.val) :
    (iblk m c 0 t : Vec F S1024x512 .bf16) (ix2 r j) = V m c main_v2 (ix2 R D) := by
  have hi := index0 t
  unfold iblk
  rw [View.read_apply]
  show V m c main_v2 _ = V m c main_v2 _
  congr 1
  funext a
  apply Fin.ext
  match a with
  | ⟨0, _⟩ => show win0_0.index t 0 * 1024 + 1 * r.val = R.val; rw [hi.1, hR]; omega
  | ⟨1, _⟩ => show win0_0.index t 1 * 512 + 1 * j.val = D.val; rw [hi.2, hD]; omega

/-- Row q, lane j of the w block at point t is w[2048 j' + q, 512 k + j], with j' = t / 8 % 2 and k = t % 8. -/
theorem iblk1_apply (c : Dev nD) (t : Fin cfg0.N) (q : Fin 2048) (j : Fin 512) (Q : Fin 4096) (D : Fin 4096)
    (hQ : Q.val = 2048 * (t.val / 8 % 2) + q.val) (hD : D.val = 512 * (t.val % 8) + j.val) :
    (iblk m c 1 t : Vec F S2048x512 .bf16) (ix2 q j) = V m c main_v3 (ix2 Q D) := by
  have hi := index1 t
  unfold iblk
  rw [View.read_apply]
  show V m c main_v3 _ = V m c main_v3 _
  congr 1
  funext a
  apply Fin.ext
  match a with
  | ⟨0, _⟩ => show win0_1.index t 0 * 2048 + 1 * q.val = Q.val; rw [hi.1, hQ]; omega
  | ⟨1, _⟩ => show win0_1.index t 1 * 512 + 1 * j.val = D.val; rw [hi.2, hD]; omega

/-- Lane q of the bias block at point t is bias[0, 2048 j' + q]. -/
theorem iblk2_apply (c : Dev nD) (t : Fin cfg0.N) (z : Fin 1) (q : Fin 2048) (Q : Fin 4096)
    (hQ : Q.val = 2048 * (t.val / 8 % 2) + q.val) :
    (iblk m c 2 t : Vec F S1x2048 .f32) (ix2 z q) = V m c main_v1 (ix2 (0 : Fin 1) Q) := by
  have hi := index2 t
  unfold iblk
  rw [View.read_apply]
  show V m c main_v1 _ = V m c main_v1 _
  congr 1
  funext a
  apply Fin.ext
  match a with
  | ⟨0, _⟩ => show win0_2.index t 0 * 1 + 1 * z.val = (0 : Fin 1).val; rw [hi.1]; have := z.isLt; simp only [Fin.val_zero]; omega
  | ⟨1, _⟩ => show win0_2.index t 1 * 2048 + 1 * q.val = Q.val; rw [hi.2, hQ]; omega

end AnyInstance

section AtIdeal
variable (m : (ℓ : Loc nD τ sig) → Buf (Elt Ideal) ℓ)

/-- The x matrix the region finds is the [4,2048,4096] argument re-read as [8192,4096] (the bf16 convert is the identity on extended reals). -/
theorem V_main_v2 (c : Dev nD) :
    (V m c main_v2 : S8192x4096.Idx → EReal) = shapeCast S8192x4096 (m ((c : Thread nD τ).loc main_arg0)) shapeCasts_S4x2048x4096_S8192x4096 := by
  show StableHlo.after hostOps0 (fun b => m (c, b)) (Proc.devRef .tc main_v2) = _
  after_results
  rfl

/-- The w matrix the region finds is the argument. -/
theorem V_main_v3 (c : Dev nD) : (V m c main_v3 : S4096x4096.Idx → EReal) = m ((c : Thread nD τ).loc main_arg1) := by
  show StableHlo.after hostOps0 (fun b => m (c, b)) (Proc.devRef .tc main_v3) = _
  after_results
  rfl

/-- The bias row the region finds is the [4096] argument re-read as [1,4096]. -/
theorem V_main_v1 (c : Dev nD) :
    (V m c main_v1 : S1x4096.Idx → EReal) = shapeCast S1x4096 (m ((c : Thread nD τ).loc main_arg2)) shapeCasts_S4096_S1x4096 := by
  show StableHlo.after hostOps0 (fun b => m (c, b)) (Proc.devRef .tc main_v1) = _
  after_results
  rfl

end AtIdeal

end Cert.KernelIdeal.Blocks

end
-- ==== Proof.DenseValue.lean ====
/-
  What the kernel's result holds at the ideal instance: the dense layer of its arguments.

  The grid is 8 × 2 × 8, row-major, point t = (i, j, k) with i = t / 16, j = t / 8 % 2, k = t % 8. For a fixed
  output block (i, j) the eight points k = 0 … 7 are consecutive. The body keeps a [1024, 2048] accumulator across
  them: at k = 0 it is reset to zero, at every k the product of the x block (rows 1024 i …, lanes 512 k …) with the
  transposed w block (rows 2048 j …, lanes 512 k …) is added, and at k = 7 the accumulator plus the bias block is
  stored to the output block, which is written back to rows 1024 i …, lanes 2048 j … of the [8192, 4096] result.

  So after point t the accumulator's entry (r, q) is the sum of the first t % 8 + 1 blocks of 512 terms of the
  contraction of row R = 1024 i + r of x with row Q = 2048 j + q of w (induction on the point), the block written
  back at k = 7 is the dense layer there (eight blocks are the whole contraction: a sum over consecutive blocks is
  the sum over all terms, by associativity and commutativity of addition on the extended reals alone), the 16
  written blocks tile the array, and the final reshape to [4, 2048, 4096] is applied to that array.
-/
import proofs.«114481_j33483565039897_2_alg».proof.Proof.Gen.KernelIdeal.Frame
import proofs.«114481_j33483565039897_2_alg».proof.Proof.Spec
import proofs.«114481_j33483565039897_2_alg».proof.Proof.Payload
import proofs.«114481_j33483565039897_2_alg».proof.Proof.Pieces
import proofs.«114481_j33483565039897_2_alg».proof.Proof.Blocks
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.DenseValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Payload Cert.KernelIdeal.Pieces Cert.KernelIdeal.Blocks
open Cert.Dense

variable (m : (ℓ : Loc nD τ sig) → Buf (Elt Ideal) ℓ) (ρ : Dev nD → PrngReg)

/-! ## One accumulation step is one more block of the contraction -/

/-- The product of lane j of row r of an x block with lane j of row q of a w block. -/
def lane (x0 : Vec Ideal S1024x512 .bf16) (x1 : Vec Ideal S2048x512 .bf16) (r : Fin 1024) (q : Fin 2048) (j : Fin 512) : EReal :=
  x0 (ix2 r j) * x1 (ix2 q j)

/-- Lane j of the products of the two blocks at point t is term 512 (t % 8) + j of the contraction of row R of x with
    row Q of w. -/
theorem step_term (c : Dev nD) (t : Fin cfg0.N) (r : Fin 1024) (q : Fin 2048) (R : Fin 8192) (Q : Fin 4096)
    (hR : R.val = 1024 * (t.val / 16) + r.val) (hQ : Q.val = 2048 * (t.val / 8 % 2) + q.val) (j : Fin 512) :
    lane (iblk m c 0 t) (iblk m c 1 t) r q j = term (V m c main_v2) (V m c main_v3) R Q (512 * (t.val % 8) + j.val) := by
  have hD : 512 * (t.val % 8) + j.val < 4096 := by have := j.isLt; omega
  unfold lane
  rw [iblk0_apply m c t r j R ⟨_, hD⟩ hR rfl, iblk1_apply m c t q j Q ⟨_, hD⟩ hQ rfl]
  exact (term_of_lt (V m c main_v2) (V m c main_v3) R Q ⟨_, hD⟩).symm

/-- An accumulator entry holding the first k blocks of a sequence's terms, stepped with two blocks whose lane products
    are the sequence's block k, holds the first k + 1 blocks. -/
theorem pay2_blocks (xs : Vec Ideal S1024x2048 .f32) (x0 : Vec Ideal S1024x512 .bf16) (x1 : Vec Ideal S2048x512 .bf16)
    (r : Fin 1024) (q : Fin 2048) (f : ℕ → EReal) (k : ℕ)
    (hxs : (xs (ix2 r q) : EReal) = ∑ i ∈ Finset.range k, ∑ j : Fin 512, f (512 * i + j.val))
    (hx : ∀ j : Fin 512, lane x0 x1 r q j = f (512 * k + j.val)) :
    (k0_pay2 xs x0 x1 (ix2 r q) : EReal) = ∑ i ∈ Finset.range (k + 1), ∑ j : Fin 512, f (512 * i + j.val) := by
  rw [pay2_apply, hxs, Finset.sum_range_succ]
  exact congrArg (_ + ·) (Finset.sum_congr rfl fun j _ => hx j)

/-! ## The accumulator after each point -/

/-- After point n the accumulator's entry (r, q) is the sum of the first n % 8 + 1 blocks of the contraction of row
    1024 (n / 16) + r of x with row 2048 (n / 8 % 2) + q of w. -/
theorem acc_eq (c : Dev nD) (n : ℕ) : ∀ (hn : n < cfg0.N) (r : Fin 1024) (q : Fin 2048) (R : Fin 8192) (Q : Fin 4096),
    R.val = 1024 * (n / 16) + r.val → Q.val = 2048 * (n / 8 % 2) + q.val →
    ((outsAt0 m c n hn).2 (ix2 r q) : EReal)
      = ∑ i ∈ Finset.range (n % 8 + 1), ∑ j : Fin 512, term (V m c main_v2) (V m c main_v3) R Q (512 * i + j.val) := by
  induction n using Nat.strong_induction_on with
  | _ n ih =>
    intro hn r q R Q hR hQ
    have hN : n < 128 := lt_of_lt_of_eq hn N_0
    by_cases h0 : n % 8 = 0
    · have h1 : ¬n % 8 = 7 := by omega
      rw [outsAt0_A m c ⟨n, hn⟩ h0 h1]
      dsimp only
      rw [sout_A (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) scM0_0 (Memref.isWhole_whole _)
        ((hcond0_0 ⟨n, hn⟩).mpr h0) (fun h => h1 ((hcond0_1 ⟨n, hn⟩).mp h))
        (iblk m c 0 ⟨n, hn⟩) (iblk m c 1 ⟨n, hn⟩) (iblk m c 2 ⟨n, hn⟩)]
      refine pay2_blocks (k0_pay1 (F := Ideal)) (iblk m c 0 ⟨n, hn⟩) (iblk m c 1 ⟨n, hn⟩) r q _ (n % 8) ?_
        (step_term m c ⟨n, hn⟩ r q R Q hR hQ)
      rw [pay1_apply, h0, Finset.sum_range_zero]
    · have hlt : n - 1 < cfg0.N := Nat.lt_of_le_of_lt (Nat.sub_le _ _) hn
      have hprev := ih (n - 1) (by omega) hlt r q R Q (by omega) (by omega)
      have e : (n - 1) % 8 + 1 = n % 8 := by omega
      rw [e] at hprev
      by_cases h1 : n % 8 = 7
      · rw [outsAt0_C m c ⟨n, hn⟩ h0 h1]
        dsimp only
        rw [sout_C (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) (ms0_3 ⟨n, hn⟩) (hs0_3 ⟨n, hn⟩) scM0_0 (Memref.isWhole_whole _)
          (fun h => h0 ((hcond0_0 ⟨n, hn⟩).mp h)) ((hcond0_1 ⟨n, hn⟩).mpr h1)
          (iblk m c 0 ⟨n, hn⟩) (iblk m c 1 ⟨n, hn⟩) (iblk m c 2 ⟨n, hn⟩) (outsAt0 m c (n - 1) hlt).2]
        exact pay2_blocks (outsAt0 m c (n - 1) hlt).2 (iblk m c 0 ⟨n, hn⟩) (iblk m c 1 ⟨n, hn⟩) r q _ (n % 8) hprev
          (step_term m c ⟨n, hn⟩ r q R Q hR hQ)
      · rw [outsAt0_B m c ⟨n, hn⟩ h0 h1]
        dsimp only
        rw [sout_B (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) (ms0_3 ⟨n, hn⟩) (hs0_3 ⟨n, hn⟩) scM0_0 (Memref.isWhole_whole _)
          (fun h => h0 ((hcond0_0 ⟨n, hn⟩).mp h)) (fun h => h1 ((hcond0_1 ⟨n, hn⟩).mp h))
          (iblk m c 0 ⟨n, hn⟩) (iblk m c 1 ⟨n, hn⟩) (iblk m c 2 ⟨n, hn⟩) (outsAt0 m c (n - 1) hlt).2]
        exact pay2_blocks (outsAt0 m c (n - 1) hlt).2 (iblk m c 0 ⟨n, hn⟩) (iblk m c 1 ⟨n, hn⟩) r q _ (n % 8) hprev
          (step_term m c ⟨n, hn⟩ r q R Q hR hQ)

/-! ## The block written back at the last step of a reduction -/

/-- The [8192, 4096] array the region leaves: the dense layer of the x and w matrices as the region finds them and of
    the bias argument. -/
abbrev result (c : Dev nD) : Buf (Elt Ideal) ((c : Thread nD τ).loc main_v4) :=
  dense (V m c main_v2) (V m c main_v3) (m ((c : Thread nD τ).loc main_arg2))

/-- Lane Q of the bias row the region finds is entry Q of the bias argument. -/
theorem bias_apply (c : Dev nD) (Q : Fin 4096) :
    (V m c main_v1 : S1x4096.Idx → EReal) (ix2 (0 : Fin 1) Q) = m ((c : Thread nD τ).loc main_arg2) (ix1 Q) := by
  rw [V_main_v1]
  exact shapeCast_a_1a_apply _ _ _ _

/-- At a point t with t % 8 = 7 the output block's entry (r, q) is the dense layer at row 1024 (t / 16) + r and lane
    2048 (t / 8 % 2) + q: the finished accumulator is all eight blocks of the contraction, and the epilogue adds the bias. -/
theorem out_eq (c : Dev nD) (t : Fin cfg0.N) (h7 : t.val % 8 = 7) (r : Fin 1024) (q : Fin 2048) (R : Fin 8192) (Q : Fin 4096)
    (hR : R.val = 1024 * (t.val / 16) + r.val) (hQ : Q.val = 2048 * (t.val / 8 % 2) + q.val) :
    ((outsAt0 m c t.val t.isLt).1 (ix2 r q) : EReal) = result m c (ix2 R Q) := by
  have h0 : ¬t.val % 8 = 0 := by omega
  have hacc := acc_eq m c t.val t.isLt r q R Q hR hQ
  rw [outsAt0_C m c t h0 h7] at hacc ⊢
  dsimp only at hacc ⊢
  rw [out_C (F := Ideal) c (grid0.coords t) (ms0_0 t) (hs0_0 t) (ms0_1 t) (hs0_1 t)
    (ms0_2 t) (hs0_2 t) (ms0_3 t) (hs0_3 t) scM0_0 (Memref.isWhole_whole _)
    (fun h => h0 ((hcond0_0 t).mp h)) ((hcond0_1 t).mpr h7)
    (iblk m c 0 t) (iblk m c 1 t) (iblk m c 2 t) (outsAt0 m c (t.val - 1) (Nat.lt_of_le_of_lt (Nat.sub_le _ _) t.isLt)).2]
  rw [sout_C (F := Ideal) c (grid0.coords t) (ms0_0 t) (hs0_0 t) (ms0_1 t) (hs0_1 t)
    (ms0_2 t) (hs0_2 t) (ms0_3 t) (hs0_3 t) scM0_0 (Memref.isWhole_whole _)
    (fun h => h0 ((hcond0_0 t).mp h)) ((hcond0_1 t).mpr h7)
    (iblk m c 0 t) (iblk m c 1 t) (iblk m c 2 t) (outsAt0 m c (t.val - 1) (Nat.lt_of_le_of_lt (Nat.sub_le _ _) t.isLt)).2] at hacc
  rw [pay3_apply, hacc, h7, iblk2_apply m c t 0 q Q hQ, bias_apply, blocks_total]
  rfl

/-- The same for any index of the block and any index of the array with those coordinates. -/
theorem out_block (c : Dev nD) (t : Fin cfg0.N) (h7 : t.val % 8 = 7) (y : S1024x2048.Idx) (i : S8192x4096.Idx)
    (h0 : (i 0).val = 1024 * (t.val / 16) + (y 0).val) (h1 : (i 1).val = 2048 * (t.val / 8 % 2) + (y 1).val) :
    ((outsAt0 m c t.val t.isLt).1 y : EReal) = result m c i :=
  (congrArg (outsAt0 m c t.val t.isLt).1 (eq_ix2 y)).trans
    ((out_eq m c t h7 (y 0) (y 1) (i 0) (i 1) h0 h1).trans (congrArg (result m c) (eq_ix2 i).symm))

/-! ## From the written blocks to the array -/

/-- Where the output window sits at point t: row block t / 16, lane block t / 8 % 2. -/
theorem index3 : ∀ t : Fin cfg0.N, win0_3.index t 0 = t.val / 16 ∧ win0_3.index t 1 = t.val / 8 % 2 :=
  (by decide +kernel : ∀ t : Fin grid0.N, win0_3.index t 0 = t.val / 16 ∧ win0_3.index t 1 = t.val / 8 % 2)

/-- What a point that writes back writes is its block of the dense layer. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hi := index3 t
  show (cfg0.win 3).cut (grid0.coords t) ((dats m 0 c).after 3 t) = _
  rw [after0_3]
  funext y
  show (outsAt0 m c t.val t.isLt).1 y = result m c (((cfg0.win 3).blk t).view.emb y)
  refine out_block m c t h7 y _ ?_ ?_
  · show win0_3.index t 0 * 1024 + 1 * (y 0).val = 1024 * (t.val / 16) + (y 0).val
    rw [hi.1]; omega
  · show win0_3.index t 1 * 2048 + 1 * (y 1).val = 2048 * (t.val / 8 % 2) + (y 1).val
    rw [hi.2]; omega

/-- An index of the array is in point t's block iff each coordinate is in the block's range on its axis. -/
theorem mem_blk (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v4).slice (win0_3.rect t)).set ↔ _
  rw [View.set_slice_whole, Rect.mem_set_unit]
  exact Iff.rfl

/-- Every index of the array lies in the block of a point that writes back: the last step of the reduction for its
    row block and lane block. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨((i 0).val / 1024 * 2 + (i 1).val / 2048) * 8 + 7, by rw [hN]; omega⟩
  have ht : t.val = ((i 0).val / 1024 * 2 + (i 1).val / 2048) * 8 + 7 := rfl
  have hi := index3 t
  refine ⟨t, (flush0_3 t).mpr (by rw [ht]; omega), ?_⟩
  rw [mem_blk]
  intro a
  match a with
  | ⟨0, _⟩ => show win0_3.index t 0 * 1024 ≤ (i 0).val ∧ (i 0).val < win0_3.index t 0 * 1024 + 1024; rw [hi.1, ht]; omega
  | ⟨1, _⟩ => show win0_3.index t 1 * 2048 ≤ (i 1).val ∧ (i 1).val < win0_3.index t 1 * 2048 + 2048; rw [hi.2, ht]; omega

/-- So the region leaves the dense layer in its result array. -/
theorem final (c : Dev nD) : (dats m 0 c).arrAt 3 cfg0.N = result m c :=
  (dats m 0 c).arrAt_eq_of_cover 3 (result m c) (flushed_eq m c) cover

/-! ## The reshape after the region, and the run -/

/-- The program's result: the region's array re-read row-major as [4, 2048, 4096]. -/
theorem tail_eq (c : Dev nD) :
    Pipeline.afterTail₀ cfgs (dats m) 0 (V0 m) [hostOps1] c main_v5
      = shapeCast S4x2048x4096 (result m c) shapeCasts_S8192x4096_S4x2048x4096 := by
  unfold Pipeline.afterTail₀
  show StableHlo.after hostOps1 _ (Proc.devRef .tc main_v5) = _
  after_results
  exact congrArg (fun a => shapeCast S4x2048x4096 a shapeCasts_S8192x4096_S4x2048x4096)
    ((Pipeline.withArrays_arr spec0 launch0.win.arr_inj c _ _ 3).trans (final m c))

/-- Every weakly fair execution of the idealized kernel program terminates with its result at the reshaped dense layer
    of the arguments, which end unchanged. -/
theorem run : θ_run defs (onTc (τ := τ) (main (F := Ideal))) ⟨m, fun _ => 0, ρ⟩ fun r => ∀ c : Dev nD,
      r.2.mem ((c : Thread nD τ).loc main_v5)
        = shapeCast S4x2048x4096 (dense (shapeCast S8192x4096 (m ((c : Thread nD τ).loc main_arg0)) shapeCasts_S4x2048x4096_S8192x4096)
            (m ((c : Thread nD τ).loc main_arg1)) (m ((c : Thread nD τ).loc main_arg2))) shapeCasts_S8192x4096_S4x2048x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans
        ((tail_eq m c).trans (by rw [← V_main_v2 m c, ← V_main_v3 m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.DenseValue

end
-- ==== Proof.RefDense.lean ====
/-
  The reference program's value before its final reshape is the dense layer of the flattened input: its
  dot_general contracts axis 1 of the [8192, 4096] reshaped x with axis 1 of w, and the bias vector is broadcast
  along the rows, so entry (R, Q) is Σ_d x(R, d) · w(Q, d) + b(Q).
-/
import proofs.«114481_j33483565039897_2_alg».proof.Proof.Gen.ReferenceIdeal.Read
import proofs.«114481_j33483565039897_2_alg».proof.Proof.Spec

noncomputable section

open scoped BigOperators

namespace Cert.ReferenceIdeal.RefDense

open Idealize.ShloMosaic Idealize.ShloMosaic.ValueIdx
open Cert.ReferenceIdeal Cert.ReferenceIdeal.Gen Cert.ReferenceIdeal.Read

/-- The stage before the final reshape is the dense layer of the flattened x, of w and of the bias. -/
theorem val_main_v4_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) :
    val_main_v4 (F := Ideal) x0 x1 x2 = Cert.Dense.dense (val_main_v0 (F := Ideal) x0) x1 x2 := by
  funext i
  have el : ∀ k : Fin 4096, lidx_main_v1 i k = ix2 (i 0) k := fun k =>
    funext fun a => by match a with | ⟨0, _⟩ => rfl | ⟨1, _⟩ => rfl
  have er : ∀ k : Fin 4096, ridx_main_v1 i k = ix2 (i 1) k := fun k =>
    funext fun a => by match a with | ⟨0, _⟩ => rfl | ⟨1, _⟩ => rfl
  have eb : idx_main_v2 (idx_main_v3 i) = ix1 (i 1) :=
    funext fun a => by match a with | ⟨0, _⟩ => rfl
  rw [val_main_v4_apply, val_main_v1_apply, val_main_v3_apply, val_main_v2_apply]
  unfold Cert.Dense.dense
  simp only [el, er, eb]
  rfl

end Cert.ReferenceIdeal.RefDense

end
-- ==== Proof.lean ====
/-
  The certificate of a linear layer y = x · wᵀ + b, x of shape [4, 2048, 4096] flattened to [8192, 4096], w of shape
  [4096, 4096], b of 4096 entries: a tiled kernel against the one-line einsum.

  The kernel contracts over the 4096 input features in eight blocks of 512, accumulating the block products in a
  [1024, 2048] scratch tile over the innermost grid axis, and adds the bias when the last block is in; the reference
  contracts all 4096 terms at once and adds the broadcast bias. Over the extended reals both are the function
      (R, Q) ↦ Σ_d x(R, d) · w(Q, d) + b(Q),
  because a sum over consecutive blocks is the sum over all the terms (addition is associative and commutative, zero is
  neutral), whatever the entries: the precondition is not used. The conversions of x and w to bf16 before the kernel
  are the identity at the ideal instance, and both programs end with the same reshape to [4, 2048, 4096].

  The three frames are the generated frame runs (the reference's is its generated run with the result dropped); the
  idealization rewrote nothing, so the preservation claim is trivial; the algebraic claim puts the kernel's run
  (DenseValue) beside the reference's run read as the dense layer (RefDense).
-/
import proofs.«114481_j33483565039897_2_alg».proof.Defs
import proofs.«114481_j33483565039897_2_alg».proof.Proof.Gen.Kernel
import proofs.«114481_j33483565039897_2_alg».proof.Proof.Gen.Kernel.Skeleton
import proofs.«114481_j33483565039897_2_alg».proof.Proof.Gen.Kernel.Launch
import proofs.«114481_j33483565039897_2_alg».proof.Proof.Gen.Kernel.Points
import proofs.«114481_j33483565039897_2_alg».proof.Proof.Gen.Kernel.Frame
import proofs.«114481_j33483565039897_2_alg».proof.Proof.Gen.KernelIdeal
import proofs.«114481_j33483565039897_2_alg».proof.Proof.Gen.KernelIdeal.Skeleton
import proofs.«114481_j33483565039897_2_alg».proof.Proof.Gen.KernelIdeal.Launch
import proofs.«114481_j33483565039897_2_alg».proof.Proof.Gen.KernelIdeal.Points
import proofs.«114481_j33483565039897_2_alg».proof.Proof.Gen.KernelIdeal.Frame
import proofs.«114481_j33483565039897_2_alg».proof.Proof.Gen.ReferenceIdeal
import proofs.«114481_j33483565039897_2_alg».proof.Proof.Gen.Pre_finite_inputs
import proofs.«114481_j33483565039897_2_alg».proof.Proof.Gen.ReferenceIdeal.Run
import proofs.«114481_j33483565039897_2_alg».proof.Proof.Gen.ReferenceIdeal.Read
import proofs.«114481_j33483565039897_2_alg».proof.Proof.DenseValue
import proofs.«114481_j33483565039897_2_alg».proof.Proof.RefDense
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reshaped dense layer of arguments that agree. -/
theorem algebraic : Cert.algebraic_KernelIdeal_ReferenceIdeal := by
  intro m ρ m' ρ' _ hagree
  refine ⟨_, Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v5_eq]
  unfold Cert.ReferenceIdeal.Read.val_main_v5
  rw [Cert.ReferenceIdeal.RefDense.val_main_v4_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
